-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S10000x512 .f32) (main_arg1 : FVec F S10000x10000 .f32) (main_arg2 : FVec F S10000x512 .f32) (main_arg3 : FVec F S512x512 .f32) (main_arg4 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x512 .f32 := Host.absf main_arg2
  let main_cst_2 : FVec F S_ .f32 := constant S_ .f32 0x7F800000#32
  let main_v10 : FVec F S10000x512 .f32 := broadcastInDim S10000x512 ![] bcast_S_S10000x512 main_cst_2
  let main_v11 : IVec S10000x512 1 := cmpf .olt main_v9 main_v10
  let main_c_3 : IVec S_ 1 := constantI S_ 1 1#1
  let main_v12 : IVec S_ 1 := (fun x v => Host.reduce IntOp.andi x v reducesTo_S10000x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S1x512 : Shape := ⟨2, ![1, 512]⟩
abbrev S200x10000 : Shape := ⟨2, ![200, 10000]⟩
abbrev S200x512 : Shape := ⟨2, ![200, 512]⟩

abbrev nBuf : Space → Nat
  | .hbm => 8
  | .vmem => 11
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S10000x512, .f32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S10000x512, .f32⟩
  | .hbm, ⟨7, _⟩ => ⟨S10000x512, .f32⟩
  | .local _ .vmem, ⟨0, _⟩ => ⟨S10000x512, .f32⟩
  | .local _ .vmem, ⟨1, _⟩ => ⟨S200x10000, .f32⟩
  | .local _ .vmem, ⟨2, _⟩ => ⟨S200x10000, .f32⟩
  | .local _ .vmem, ⟨3, _⟩ => ⟨S200x512, .f32⟩
  | .local _ .vmem, ⟨4, _⟩ => ⟨S200x512, .f32⟩
  | .local _ .vmem, ⟨5, _⟩ => ⟨S512x512, .f32⟩
  | .local _ .vmem, ⟨6, _⟩ => ⟨S1x512, .f32⟩
  | .local _ .vmem, ⟨7, _⟩ => ⟨S200x512, .f32⟩
  | .local _ .vmem, ⟨8, _⟩ => ⟨S200x512, .f32⟩
  | .local _ .vmem, ⟨9, _⟩ => ⟨S200x512, .f32⟩
  | .local _ .vmem, ⟨10, _⟩ => ⟨S200x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![50], ![false]⟩

def k0_off1 (i : grid0.Coords) : Fin 2 → Nat :=
  let arg0 : BitVec 32 := BitVec.ofNat 32 (i 0).val
  let c200_i32 : BitVec 32 := 200#32
  let v7 : BitVec 32 := Scalar.muli arg0 c200_i32
  let v8 : Index := Scalar.indexCast v7
  let c0_6 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S512_S1x512 : S512.ShapeCasts S1x512
  inb_S200x10000_S200x10000_0_0 : ∀ a, (![0, 0] : Fin 2 → Nat) a + S200x10000.size a ≤ S200x10000.size a
  h_S200x10000 : 0 < S200x10000.numel
  inb_S10000x512_S10000x512_0_0 : ∀ a, (![0, 0] : Fin 2 → Nat) a + S10000x512.size a ≤ S10000x512.size a
  h_S10000x512 : 0 < S10000x512.numel
  inb_S200x512_S200x512_0_0 : ∀ a, (![0, 0] : Fin 2 → Nat) a + S200x512.size a ≤ S200x512.size a
  h_S200x512 : 0 < S200x512.numel
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S200x512 : S1x512.Broadcasts S200x512
  dot_S200x10000_S10000x512_S200x512_1_0_0_1_n_n_wf : DotDims.WF S200x10000 S10000x512 S200x512 [1] [0] [0] [1] [] []
  dot_S200x512_S512x512_S200x512_1_0_0_1_n_n_wf : DotDims.WF S200x512 S512x512 S200x512 [1] [0] [0] [1] [] []
  hrank0 : 0 < grid0.rank
  k0_off1_inb : ∀ i : grid0.Coords, ∀ a, (k0_off1 i) a + S200x512.size a ≤ S10000x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x512.size a ≤ S10000x512.size a
  hwx0_0 : ∀ i : grid0.Coords, EltTy.bits .f32 = 32 ∨ (Rect.block (s := S10000x512) S10000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x512.size a ≤ S10000x512.size a
  hwx0_2 : ∀ i : grid0.Coords, EltTy.bits .f32 = 32 ∨ (Rect.block (s := S10000x512) S200x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x512.size a ≤ S10000x512.size a
  hwx0_5 : ∀ i : grid0.Coords, EltTy.bits .f32 = 32 ∨ (Rect.block (s := S10000x512) S200x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x512.size a ≤ S10000x512.size a
  hwx0_6 : ∀ i : grid0.Coords, EltTy.bits .f32 = 32 ∨ (Rect.block (s := S10000x512) S200x512.size (cc0_transform_6 i) (hinb0_6 i)).WholeWords (EltTy.packing .f32)

variable [Facts₀]

def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf
def dot_S200x512_S512x512_S200x512_1_0_0_1_n_n : DotDims S200x512 S512x512 S200x512 where
  lhsContracting := [1]
  rhsContracting := [0]
  lhsNonContracting := [0]
  rhsNonContracting := [1]
  lhsBatch := []
  rhsBatch := []
  wf := dot_S200x512_S512x512_S200x512_1_0_0_1_n_n_wf

abbrev win0_0 : Pipeline.Window sig grid0 :=
  Pipeline.Window.ofSpec (Memref.whole main_arg0) S10000x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S200x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S200x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S200x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S_ : Shape := ⟨0, ![]⟩
abbrev S1x512 : Shape := ⟨2, ![1, 512]⟩

abbrev nBuf : Space → Nat
  | .hbm => 16
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S10000x512, .f32⟩
  | .hbm, ⟨3, _⟩ => ⟨S512x512, .f32⟩
  | .hbm, ⟨4, _⟩ => ⟨S512, .f32⟩
  | .hbm, ⟨5, _⟩ => ⟨S10000x512, .f32⟩
  | .hbm, ⟨6, _⟩ => ⟨S10000x512, .f32⟩
  | .hbm, ⟨7, _⟩ => ⟨S10000x512, .f32⟩
  | .hbm, ⟨8, _⟩ => ⟨S_, .f32⟩
  | .hbm, ⟨9, _⟩ => ⟨S10000x512, .f32⟩
  | .hbm, ⟨10, _⟩ => ⟨S10000x512, .f32⟩
  | .hbm, ⟨11, _⟩ => ⟨S10000x512, .f32⟩
  | .hbm, ⟨12, _⟩ => ⟨S10000x512, .f32⟩
  | .hbm, ⟨13, _⟩ => ⟨S1x512, .f32⟩
  | .hbm, ⟨14, _⟩ => ⟨S10000x512, .f32⟩
  | .hbm, ⟨15, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf

class Facts : Prop extends Facts₀ where

variable [Facts]
-- ==== Proof.Pieces.lean ====
/-
  What one grid step leaves in its two output blocks, as pure terms of the blocks it loaded.

  The body stores each output block once, whole: the message block is the first payload (the neighbourhood
  product, the residual, the halving, the weight product) of the loaded adjacency rows, the resident features,
  the residual rows and the weights; the output block is the second payload, which also reads the step's own
  200 feature rows out of the resident buffer at the row offset 200 * (step number), and the bias row.
-/
import proofs.«103387_g65738769432681_cont_9to1_m_364_4_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The step's own feature rows: rows `200 * i .. 200 * i + 199` of the resident feature buffer. -/
abbrev ownRows (i : grid0.Coords) (x0 : Vec F S10000x512 .f32) : Vec F S200x512 .f32 :=
  View.ld x0 (Rect.unit (s := S10000x512) (k0_off1 i) S200x512.size (k0_off1_inb i))

/-- The message block a step leaves is the first payload of what it loaded. -/
theorem message_block (c : Dev nD) (i : grid0.Coords) (a1 : Memref sig .tc .vmem S10000x512 .f32) (h1 : a1.IsWhole)
    (a2 : Memref sig .tc .vmem S200x10000 .f32) (h2 : a2.IsWhole) (a3 : Memref sig .tc .vmem S200x512 .f32) (h3 : a3.IsWhole)
    (a4 : Memref sig .tc .vmem S512x512 .f32) (h4 : a4.IsWhole) (a5 : Memref sig .tc .vmem S1x512 .f32) (h5 : a5.IsWhole)
    (a6 : Memref sig .tc .vmem S200x512 .f32) (h6 : a6.IsWhole) (a7 : Memref sig .tc .vmem S200x512 .f32) (h7 : a7.IsWhole)
    (x0 : Vec F S10000x512 .f32) (x1 : Vec F S200x10000 .f32) (x2 : Vec F S200x512 .f32) (x3 : Vec F S512x512 .f32) (x4 : Vec F S1x512 .f32) :
    out0_A_6 c i a1 h1 a2 h2 a3 h3 a4 h4 a5 h5 a6 h6 a7 h7 x0 x1 x2 x3 x4 = k0_pay1 x1 x0 x2 x3 := by
  unfold out0_A_6
  rw [View.read_writes_eq_canon _ _ _ (cover0_A_6 c i a1 h1 a2 h2 a3 h3 a4 h4 a5 h5 a6 h6 a7 h7 x0 x1 x2 x3 x4)]
  unfold kernelRun0_A
  dsimp only
  rw [View.canon_unit_zero hz]
  simp only [View.readAt_eq_ld, h1.read_unread, h2.read_unread, h3.read_unread, h4.read_unread,
    View.ld_unit_zero (S := S10000x512) hz, View.ld_unit_zero (S := S200x10000) hz,
    View.ld_unit_zero (S := S200x512) hz, View.ld_unit_zero (S := S512x512) hz]

/-- The output block a step leaves is the second payload of what it loaded, its own feature rows among them. -/
theorem output_block (c : Dev nD) (i : grid0.Coords) (a1 : Memref sig .tc .vmem S10000x512 .f32) (h1 : a1.IsWhole)
    (a2 : Memref sig .tc .vmem S200x10000 .f32) (h2 : a2.IsWhole) (a3 : Memref sig .tc .vmem S200x512 .f32) (h3 : a3.IsWhole)
    (a4 : Memref sig .tc .vmem S512x512 .f32) (h4 : a4.IsWhole) (a5 : Memref sig .tc .vmem S1x512 .f32) (h5 : a5.IsWhole)
    (a6 : Memref sig .tc .vmem S200x512 .f32) (h6 : a6.IsWhole) (a7 : Memref sig .tc .vmem S200x512 .f32) (h7 : a7.IsWhole)
    (x0 : Vec F S10000x512 .f32) (x1 : Vec F S200x10000 .f32) (x2 : Vec F S200x512 .f32) (x3 : Vec F S512x512 .f32) (x4 : Vec F S1x512 .f32) :
    out0_A_5 c i a1 h1 a2 h2 a3 h3 a4 h4 a5 h5 a6 h6 a7 h7 x0 x1 x2 x3 x4
      = k0_pay2 x1 x0 x2 (ownRows i x0) x3 x3 x4 := by
  unfold out0_A_5
  rw [View.read_writes_eq_canon _ _ _ (cover0_A_5 c i a1 h1 a2 h2 a3 h3 a4 h4 a5 h5 a6 h6 a7 h7 x0 x1 x2 x3 x4)]
  unfold kernelRun0_A
  dsimp only
  rw [View.canon_unit_zero hz]
  simp only [View.readAt_eq_ld, h1.read_unread, h2.read_unread, h3.read_unread, h4.read_unread, h5.read_unread,
    View.ld_unit_zero (S := S10000x512) hz, View.ld_unit_zero (S := S200x10000) hz,
    View.ld_unit_zero (S := S200x512) hz, View.ld_unit_zero (S := S512x512) hz, View.ld_unit_zero (S := S1x512) hz]

end Cert.KernelIdeal.Pieces

end
-- ==== Proof.Payload.lean ====
/-
  The two payloads of a grid step, read at one element over the extended reals.

  A matrix product into the zero block is, at row p and column q, the plain sum over the contracted axis; the
  elementwise operations act element by element; the bias row [1, 512] is read at column q for every row. So the
  first payload at (p, q) is
      sum over k of ((sum over l of adjrows p l * feats l k) + resrows p k) * 1/2 * weights k q,
  and the second is that, plus sum over k of ownrows p k * weights k q, plus bias 0 q.
-/
import proofs.«103387_g65738769432681_cont_9to1_m_364_4_alg».proof.Proof.Pieces
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.Payload

open Cert.KernelIdeal Cert.KernelIdeal.Gen

theorem nbr_lhs0 (i : S200x512.Idx) (q : dot_S200x10000_S10000x512_S200x512_1_0_0_1_n_n.contr.Idx) : (dot_S200x10000_S10000x512_S200x512_1_0_0_1_n_n.lhsIdx i q 0).val = (i 0).val := by
  unfold DotDims.lhsIdx
  rw [dif_neg (show ¬(0 : Fin S200x10000.rank) ∈ dot_S200x10000_S10000x512_S200x512_1_0_0_1_n_n.lhsBatch by decide), dif_pos (show (0 : Fin S200x10000.rank) ∈ dot_S200x10000_S10000x512_S200x512_1_0_0_1_n_n.lhsNonContracting by decide)]
  rfl
theorem nbr_lhs1 (i : S200x512.Idx) (q : dot_S200x10000_S10000x512_S200x512_1_0_0_1_n_n.contr.Idx) : (dot_S200x10000_S10000x512_S200x512_1_0_0_1_n_n.lhsIdx i q 1).val = (q ⟨0, by decide⟩).val :=
  dot_S200x10000_S10000x512_S200x512_1_0_0_1_n_n.lhsIdx_val_of_single rfl i q
theorem nbr_rhs0 (i : S200x512.Idx) (q : dot_S200x10000_S10000x512_S200x512_1_0_0_1_n_n.contr.Idx) : (dot_S200x10000_S10000x512_S200x512_1_0_0_1_n_n.rhsIdx i q 0).val = (q ⟨0, by decide⟩).val :=
  dot_S200x10000_S10000x512_S200x512_1_0_0_1_n_n.rhsIdx_val_of_single rfl i q
theorem nbr_rhs1 (i : S200x512.Idx) (q : dot_S200x10000_S10000x512_S200x512_1_0_0_1_n_n.contr.Idx) : (dot_S200x10000_S10000x512_S200x512_1_0_0_1_n_n.rhsIdx i q 1).val = (i 1).val := by
  unfold DotDims.rhsIdx
  rw [dif_neg (show ¬(1 : Fin S10000x512.rank) ∈ dot_S200x10000_S10000x512_S200x512_1_0_0_1_n_n.rhsBatch by decide), dif_pos (show (1 : Fin S10000x512.rank) ∈ dot_S200x10000_S10000x512_S200x512_1_0_0_1_n_n.rhsNonContracting by decide)]
  rfl

/-- Into the zero block, this matrix product at row `p`, column `q` is the sum over the 10000 contracted
    positions of the row's entry times the column's entry. -/
theorem nbr_product (l : FVec Ideal S200x10000 .f32) (r : FVec Ideal S10000x512 .f32) (p : Fin 200) (q : Fin 512) :
    matmul (F := Ideal) dot_S200x10000_S10000x512_S200x512_1_0_0_1_n_n none l r (constant (F := Ideal) S200x512 .f32 0x00000000#32) (ix2 p q)
      = ∑ k : Fin 10000, l (ix2 p k) * r (ix2 k q) := by
  show FloatOps.matmul dot_S200x10000_S10000x512_S200x512_1_0_0_1_n_n none l r (constant (F := Ideal) S200x512 .f32 0x00000000#32) (ix2 p q) = _
  rw [Ideal.matmul_constant_zero_apply, ← Equiv.sum_comp (contrEquiv1 dot_S200x10000_S10000x512_S200x512_1_0_0_1_n_n 10000 rfl rfl).symm]
  refine Finset.sum_congr rfl fun k _ => ?_
  have hk := contrEquiv1_symm_val dot_S200x10000_S10000x512_S200x512_1_0_0_1_n_n 10000 rfl rfl k
  have el : dot_S200x10000_S10000x512_S200x512_1_0_0_1_n_n.lhsIdx (ix2 p q) ((contrEquiv1 dot_S200x10000_S10000x512_S200x512_1_0_0_1_n_n 10000 rfl rfl).symm k) = ix2 p k := funext fun a => Fin.ext (by
    match a with
    | ⟨0, _⟩ => exact nbr_lhs0 _ _
    | ⟨1, _⟩ => exact (nbr_lhs1 _ _).trans hk)
  have er : dot_S200x10000_S10000x512_S200x512_1_0_0_1_n_n.rhsIdx (ix2 p q) ((contrEquiv1 dot_S200x10000_S10000x512_S200x512_1_0_0_1_n_n 10000 rfl rfl).symm k) = ix2 k q := funext fun a => Fin.ext (by
    match a with
    | ⟨0, _⟩ => exact (nbr_rhs0 _ _).trans hk
    | ⟨1, _⟩ => exact nbr_rhs1 _ _)
  rw [el, er]

theorem wgt_lhs0 (i : S200x512.Idx) (q : dot_S200x512_S512x512_S200x512_1_0_0_1_n_n.contr.Idx) : (dot_S200x512_S512x512_S200x512_1_0_0_1_n_n.lhsIdx i q 0).val = (i 0).val := by
  unfold DotDims.lhsIdx
  rw [dif_neg (show ¬(0 : Fin S200x512.rank) ∈ dot_S200x512_S512x512_S200x512_1_0_0_1_n_n.lhsBatch by decide), dif_pos (show (0 : Fin S200x512.rank) ∈ dot_S200x512_S512x512_S200x512_1_0_0_1_n_n.lhsNonContracting by decide)]
  rfl
theorem wgt_lhs1 (i : S200x512.Idx) (q : dot_S200x512_S512x512_S200x512_1_0_0_1_n_n.contr.Idx) : (dot_S200x512_S512x512_S200x512_1_0_0_1_n_n.lhsIdx i q 1).val = (q ⟨0, by decide⟩).val :=
  dot_S200x512_S512x512_S200x512_1_0_0_1_n_n.lhsIdx_val_of_single rfl i q
theorem wgt_rhs0 (i : S200x512.Idx) (q : dot_S200x512_S512x512_S200x512_1_0_0_1_n_n.contr.Idx) : (dot_S200x512_S512x512_S200x512_1_0_0_1_n_n.rhsIdx i q 0).val = (q ⟨0, by decide⟩).val :=
  dot_S200x512_S512x512_S200x512_1_0_0_1_n_n.rhsIdx_val_of_single rfl i q
theorem wgt_rhs1 (i : S200x512.Idx) (q : dot_S200x512_S512x512_S200x512_1_0_0_1_n_n.contr.Idx) : (dot_S200x512_S512x512_S200x512_1_0_0_1_n_n.rhsIdx i q 1).val = (i 1).val := by
  unfold DotDims.rhsIdx
  rw [dif_neg (show ¬(1 : Fin S512x512.rank) ∈ dot_S200x512_S512x512_S200x512_1_0_0_1_n_n.rhsBatch by decide), dif_pos (show (1 : Fin S512x512.rank) ∈ dot_S200x512_S512x512_S200x512_1_0_0_1_n_n.rhsNonContracting by decide)]
  rfl

/-- Into the zero block, this matrix product at row `p`, column `q` is the sum over the 512 contracted
    positions of the row's entry times the column's entry. -/
theorem wgt_product (l : FVec Ideal S200x512 .f32) (r : FVec Ideal S512x512 .f32) (p : Fin 200) (q : Fin 512) :
    matmul (F := Ideal) dot_S200x512_S512x512_S200x512_1_0_0_1_n_n none l r (constant (F := Ideal) S200x512 .f32 0x00000000#32) (ix2 p q)
      = ∑ k : Fin 512, l (ix2 p k) * r (ix2 k q) := by
  show FloatOps.matmul dot_S200x512_S512x512_S200x512_1_0_0_1_n_n none l r (constant (F := Ideal) S200x512 .f32 0x00000000#32) (ix2 p q) = _
  rw [Ideal.matmul_constant_zero_apply, ← Equiv.sum_comp (contrEquiv1 dot_S200x512_S512x512_S200x512_1_0_0_1_n_n 512 rfl rfl).symm]
  refine Finset.sum_congr rfl fun k _ => ?_
  have hk := contrEquiv1_symm_val dot_S200x512_S512x512_S200x512_1_0_0_1_n_n 512 rfl rfl k
  have el : dot_S200x512_S512x512_S200x512_1_0_0_1_n_n.lhsIdx (ix2 p q) ((contrEquiv1 dot_S200x512_S512x512_S200x512_1_0_0_1_n_n 512 rfl rfl).symm k) = ix2 p k := funext fun a => Fin.ext (by
    match a with
    | ⟨0, _⟩ => exact wgt_lhs0 _ _
    | ⟨1, _⟩ => exact (wgt_lhs1 _ _).trans hk)
  have er : dot_S200x512_S512x512_S200x512_1_0_0_1_n_n.rhsIdx (ix2 p q) ((contrEquiv1 dot_S200x512_S512x512_S200x512_1_0_0_1_n_n 512 rfl rfl).symm k) = ix2 k q := funext fun a => Fin.ext (by
    match a with
    | ⟨0, _⟩ => exact (wgt_rhs0 _ _).trans hk
    | ⟨1, _⟩ => exact wgt_rhs1 _ _)
  rw [el, er]

/-- The first payload (the message block) at row `p`, column `q`. -/
theorem pay1_apply (v0 : Vec Ideal S200x10000 .f32) (v1 : Vec Ideal S10000x512 .f32) (v3 : Vec Ideal S200x512 .f32)
    (v10 : Vec Ideal S512x512 .f32) (p : Fin 200) (q : Fin 512) :
    k0_pay1 v0 v1 v3 v10 (ix2 p q)
      = ∑ k : Fin 512, ((∑ l : Fin 10000, v0 (ix2 p l) * v1 (ix2 l k)) + v3 (ix2 p k))
          * Ideal.ofBits .f32 0x3F000000#32 * v10 (ix2 k q) := by
  unfold k0_pay1
  refine (wgt_product _ v10 p q).trans ?_
  refine Finset.sum_congr rfl fun k _ => ?_
  refine congrArg (· * v10 (ix2 k q)) ?_
  exact congrArg (fun z => (z + v3 (ix2 p k)) * Ideal.ofBits .f32 0x3F000000#32) (nbr_product v0 v1 p k)

/-- The second payload (the output block) at row `p`, column `q`: the message there, plus the step's own rows times
    the weights, plus the bias at column `q`. -/
theorem pay2_apply (v0 : Vec Ideal S200x10000 .f32) (v1 : Vec Ideal S10000x512 .f32) (v3 : Vec Ideal S200x512 .f32)
    (v9 : Vec Ideal S200x512 .f32) (v10 v12 : Vec Ideal S512x512 .f32) (v16 : Vec Ideal S1x512 .f32)
    (p : Fin 200) (q : Fin 512) :
    k0_pay2 v0 v1 v3 v9 v10 v12 v16 (ix2 p q)
      = (k0_pay1 v0 v1 v3 v10 (ix2 p q) + ∑ k : Fin 512, v9 (ix2 p k) * v12 (ix2 k q)) + v16 (ix2 (0 : Fin 1) q) := by
  unfold k0_pay2
  refine congrArg₂ (· + ·) (congrArg (k0_pay1 v0 v1 v3 v10 (ix2 p q) + ·) (wgt_product v9 v12 p q)) ?_
  refine (broadcastTo_1b_ab_apply _ _ p q).trans ?_
  rw [shapeCast_self]

/-- The step's own rows at row `p`, feature `k`: row `200 * i + p` of the resident features. -/
theorem ownRows_apply {F : FTy → Type} [FloatOps F] (i : grid0.Coords) (x0 : Vec F S10000x512 .f32) (p : Fin 200) (k : Fin 512)
    (P : Fin 10000) (hP : P.val = 200 * (i 0).val + p.val) :
    Pieces.ownRows i x0 (ix2 p k) = x0 (ix2 P k) := by
  show x0 ((Rect.unit (s := S10000x512) (k0_off1 i) S200x512.size (k0_off1_inb i)).idx (ix2 p k)) = x0 (ix2 P k)
  refine congrArg x0 (funext fun a => Fin.ext ?_)
  have e := k0_off1_eq i
  match a with
  | ⟨0, _⟩ =>
    show k0_off1 i 0 + 1 * p.val = P.val
    rw [e, hP]; show 200 * (i 0).val + 1 * p.val = _; omega
  | ⟨1, _⟩ =>
    show k0_off1 i 1 + 1 * k.val = k.val
    rw [e]; show 0 + 1 * k.val = _; omega

end Cert.KernelIdeal.Payload

end
-- ==== Proof.Spec.lean ====
/-
  One residual graph-convolution layer, index by index over the extended reals.

  For node features x (10000 x 512), an adjacency matrix adj (10000 x 10000), a residual r (10000 x 512), weights
  w (512 x 512) and a bias b (512):
      agg p k      = ((sum over l of adj p l * x l k) + r p k) * 1/2          the averaged neighbourhood sum
      message p q  = sum over k of agg p k * w k q
      output p q   = (message p q + sum over k of x p k * w k q) + b q
  The halving is spelt as a product with the binary float 1/2; a quotient by the float 2 is the same extended real
  (`div_two`), also at the infinities, so nothing here asks the inputs to be finite.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The float `0.5` denotes the real 1/2. -/
theorem half_eq : Ideal.ofBits .f32 0x3F000000#32 = ((1 / 2 : ℝ) : EReal) := by
  simp [Ideal.ofBits, Ideal.ieee, -EReal.coe_mul]; norm_num

/-- The float `2.0` denotes the real 2. -/
theorem two_eq : Ideal.ofBits .f32 0x40000000#32 = ((2 : ℝ) : EReal) := by
  simp [Ideal.ofBits, Ideal.ieee, -EReal.coe_mul]; norm_num

/-- Dividing by 2 is multiplying by 1/2, on every extended real. -/
theorem div_two (y : EReal) :
    Ideal.div y (Ideal.ofBits .f32 0x40000000#32) = y * Ideal.ofBits .f32 0x3F000000#32 := by
  rw [two_eq, half_eq, Ideal.div_coe (by norm_num : (2 : ℝ) ≠ 0)]

/-- Row `p`, feature `k` of the averaged neighbourhood sum. -/
def agg (x : (⟨2, ![10000, 512]⟩ : Shape).Idx → EReal) (adj : (⟨2, ![10000, 10000]⟩ : Shape).Idx → EReal)
    (r : (⟨2, ![10000, 512]⟩ : Shape).Idx → EReal) (p : Fin 10000) (k : Fin 512) : EReal :=
  ((∑ l : Fin 10000, adj (ix2 p l) * x (ix2 l k)) + r (ix2 p k)) * Ideal.ofBits .f32 0x3F000000#32

/-- The message: the averaged neighbourhood sum times the weights. -/
def messageAt (x : (⟨2, ![10000, 512]⟩ : Shape).Idx → EReal) (adj : (⟨2, ![10000, 10000]⟩ : Shape).Idx → EReal)
    (r : (⟨2, ![10000, 512]⟩ : Shape).Idx → EReal) (w : (⟨2, ![512, 512]⟩ : Shape).Idx → EReal)
    (p : Fin 10000) (q : Fin 512) : EReal :=
  ∑ k : Fin 512, agg x adj r p k * w (ix2 k q)

/-- The layer's output: the message, plus the node's own features times the weights, plus the bias. -/
def outputAt (x : (⟨2, ![10000, 512]⟩ : Shape).Idx → EReal) (adj : (⟨2, ![10000, 10000]⟩ : Shape).Idx → EReal)
    (r : (⟨2, ![10000, 512]⟩ : Shape).Idx → EReal) (w : (⟨2, ![512, 512]⟩ : Shape).Idx → EReal)
    (b : (⟨1, ![512]⟩ : Shape).Idx → EReal) (p : Fin 10000) (q : Fin 512) : EReal :=
  (messageAt x adj r w p q + ∑ k : Fin 512, x (ix2 p k) * w (ix2 k q)) + b (ix1 q)

/-- The message as an array. -/
def message (x : (⟨2, ![10000, 512]⟩ : Shape).Idx → EReal) (adj : (⟨2, ![10000, 10000]⟩ : Shape).Idx → EReal)
    (r : (⟨2, ![10000, 512]⟩ : Shape).Idx → EReal) (w : (⟨2, ![512, 512]⟩ : Shape).Idx → EReal) :
    (⟨2, ![10000, 512]⟩ : Shape).Idx → EReal :=
  fun i => messageAt x adj r w (i 0) (i 1)

/-- The output as an array. -/
def output (x : (⟨2, ![10000, 512]⟩ : Shape).Idx → EReal) (adj : (⟨2, ![10000, 10000]⟩ : Shape).Idx → EReal)
    (r : (⟨2, ![10000, 512]⟩ : Shape).Idx → EReal) (w : (⟨2, ![512, 512]⟩ : Shape).Idx → EReal)
    (b : (⟨1, ![512]⟩ : Shape).Idx → EReal) : (⟨2, ![10000, 512]⟩ : Shape).Idx → EReal :=
  fun i => outputAt x adj r w b (i 0) (i 1)

end Cert.Spec

end
-- ==== Proof.Blocks.lean ====
/-
  A block of a grid step is a block of the specification.

  Whenever the adjacency rows and residual rows a step loaded are rows P = 200 * (step) + p of the arrays, the resident
  features and weights are the arrays themselves, its own feature rows are rows P of the features and the bias row is
  the bias, the message block at (p, q) is the specification's message at (P, q) and the output block at (p, q) its
  output at (P, q): the same sums of the same products, term by term.
-/
import proofs.«103387_g65738769432681_cont_9to1_m_364_4_alg».proof.Proof.Payload
import proofs.«103387_g65738769432681_cont_9to1_m_364_4_alg».proof.Proof.Spec

noncomputable section

open Idealize.ShloMosaic Idealize.ShloMosaic.TcCoe Idealize.ShloMosaic.ValueIdx

namespace Cert.KernelIdeal.Blocks

open Cert.KernelIdeal Cert.KernelIdeal.Gen

/-- The message block at `(p, q)` is the specification's message at the block's row `P`. -/
theorem message_eq (X : S10000x512.Idx → EReal) (A : S10000x10000.Idx → EReal) (R : S10000x512.Idx → EReal)
    (W : S512x512.Idx → EReal) (v0 : Vec Ideal S200x10000 .f32) (v1 : Vec Ideal S10000x512 .f32)
    (v3 : Vec Ideal S200x512 .f32) (v10 : Vec Ideal S512x512 .f32) (P : Fin 10000) (p : Fin 200) (q : Fin 512)
    (h0 : ∀ l : Fin 10000, v0 (ix2 p l) = A (ix2 P l)) (h1 : v1 = X)
    (h3 : ∀ k : Fin 512, v3 (ix2 p k) = R (ix2 P k)) (h10 : v10 = W) :
    k0_pay1 v0 v1 v3 v10 (ix2 p q) = Cert.Spec.messageAt X A R W P q := by
  subst h1 h10
  rw [Payload.pay1_apply]
  unfold Cert.Spec.messageAt Cert.Spec.agg
  refine Finset.sum_congr rfl fun k _ => ?_
  rw [h3 k]
  exact congrArg (fun z => (z + R (ix2 P k)) * Ideal.ofBits .f32 0x3F000000#32 * v10 (ix2 k q))
    (Finset.sum_congr rfl fun l _ => by rw [h0 l])

/-- The output block at `(p, q)` is the specification's output at the block's row `P`. -/
theorem output_eq (X : S10000x512.Idx → EReal) (A : S10000x10000.Idx → EReal) (R : S10000x512.Idx → EReal)
    (W : S512x512.Idx → EReal) (B : S512.Idx → EReal) (v0 : Vec Ideal S200x10000 .f32) (v1 : Vec Ideal S10000x512 .f32)
    (v3 : Vec Ideal S200x512 .f32) (v9 : Vec Ideal S200x512 .f32) (v10 v12 : Vec Ideal S512x512 .f32)
    (v16 : Vec Ideal S1x512 .f32) (P : Fin 10000) (p : Fin 200) (q : Fin 512)
    (h0 : ∀ l : Fin 10000, v0 (ix2 p l) = A (ix2 P l)) (h1 : v1 = X)
    (h3 : ∀ k : Fin 512, v3 (ix2 p k) = R (ix2 P k)) (h10 : v10 = W)
    (h9 : ∀ k : Fin 512, v9 (ix2 p k) = X (ix2 P k)) (h12 : v12 = W)
    (h16 : v16 (ix2 (0 : Fin 1) q) = B (ix1 q)) :
    k0_pay2 v0 v1 v3 v9 v10 v12 v16 (ix2 p q) = Cert.Spec.outputAt X A R W B P q := by
  rw [Payload.pay2_apply, message_eq X A R W v0 v1 v3 v10 P p q h0 h1 h3 h10, h16]
  subst h12
  unfold Cert.Spec.outputAt
  exact congrArg (fun z => (Cert.Spec.messageAt X A R v12 P q + z) + B (ix1 q))
    (Finset.sum_congr rfl fun k _ => by rw [h9 k])

end Cert.KernelIdeal.Blocks

end
-- ==== Proof.KernelValue.lean ====
/-
  The kernel's two result arrays are the specification's output and message of the argument arrays.

  The grid has 50 steps; step t works on rows 200 * t .. 200 * t + 199. Its adjacency, residual and result windows
  sit at block row t, block column 0; the feature, weight and bias windows are whole arrays. So what step t loads are
  rows 200 * t + p of adj and r, all of x and w, and the bias row (the host reshaped b from [512] to [1, 512] before
  the call); its own feature rows are rows 200 * t + p of x. By the block lemmas each step writes back block t of
  the specification, and the 50 row blocks tile the 10000 rows (row P lies in block P / 200), so each result array
  ends holding the specification whole.
-/
import proofs.«103387_g65738769432681_cont_9to1_m_364_4_alg».proof.Proof.Blocks
import proofs.«103387_g65738769432681_cont_9to1_m_364_4_alg».proof.Proof.Gen.KernelIdeal.Value
import Idealize.ShloMosaic.Lib.Pipeline.Value
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- The windows' block indices at step `t`, decided over the 50 steps: the row-blocked windows (adjacency,
    residual, the two results) are at block row `t`, everything else at block 0. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ (grid0.coords t 0).val = t.val :=
  (by decide +kernel : ∀ t : Fin grid0.N, _)

/-! ## What a step loads -/

/-- The adjacency rows of step `t`: row `p` of the block is row `200 * t + p` of the matrix. -/
theorem adj_rows (c : Dev nD) (t : Fin cfg0.N) (p : Fin 200) (l : Fin 10000) (P : Fin 10000)
    (hP : P.val = 200 * t.val + p.val) :
    iblk m c 1 t (ix2 p l) = m ((c : Thread nD τ).loc main_arg1) (ix2 P l) := by
  obtain ⟨-, -, e0, e1, -⟩ := idx_facts t
  show V m c main_arg1 (((cfg0.win 1).blk t).view.emb (ix2 p l)) = _
  rw [V_main_arg1 m c]
  refine congrArg (m ((c : Thread nD τ).loc main_arg1)) (funext fun a => Fin.ext ?_)
  match a with
  | ⟨0, _⟩ => show win0_1.index t (0 : Fin 2) * 200 + 1 * p.val = P.val; omega
  | ⟨1, _⟩ => show win0_1.index t (1 : Fin 2) * 10000 + 1 * l.val = l.val; omega

/-- The residual rows of step `t`: row `p` of the block is row `200 * t + p` of the residual. -/
theorem res_rows (c : Dev nD) (t : Fin cfg0.N) (p : Fin 200) (k : Fin 512) (P : Fin 10000)
    (hP : P.val = 200 * t.val + p.val) :
    iblk m c 2 t (ix2 p k) = m ((c : Thread nD τ).loc main_arg2) (ix2 P k) := by
  obtain ⟨-, -, -, -, e0, e1, -⟩ := idx_facts t
  show V m c main_arg2 (((cfg0.win 2).blk t).view.emb (ix2 p k)) = _
  rw [V_main_arg2 m c]
  refine congrArg (m ((c : Thread nD τ).loc main_arg2)) (funext fun a => Fin.ext ?_)
  match a with
  | ⟨0, _⟩ => show win0_2.index t (0 : Fin 2) * 200 + 1 * p.val = P.val; omega
  | ⟨1, _⟩ => show win0_2.index t (1 : Fin 2) * 512 + 1 * k.val = k.val; omega

/-- The resident features are the whole feature array, at every step. -/
theorem feats_whole (c : Dev nD) (t : Fin cfg0.N) :
    (iblk m c 0 t : Vec Ideal S10000x512 .f32) = m ((c : Thread nD τ).loc main_arg0) := by
  obtain ⟨e0, e1, -⟩ := idx_facts t
  funext y
  show V m c main_arg0 (((cfg0.win 0).blk t).view.emb y) = _
  rw [V_main_arg0 m c]
  refine congrArg (m ((c : Thread nD τ).loc main_arg0)) (funext fun a => Fin.ext ?_)
  match a with
  | ⟨0, _⟩ => show win0_0.index t (0 : Fin 2) * 10000 + 1 * (y 0).val = (y 0).val; omega
  | ⟨1, _⟩ => show win0_0.index t (1 : Fin 2) * 512 + 1 * (y 1).val = (y 1).val; omega

/-- The resident weights are the whole weight array, at every step. -/
theorem weights_whole (c : Dev nD) (t : Fin cfg0.N) :
    (iblk m c 3 t : Vec Ideal S512x512 .f32) = m ((c : Thread nD τ).loc main_arg3) := by
  obtain ⟨-, -, -, -, -, -, e0, e1, -⟩ := idx_facts t
  funext y
  show V m c main_arg3 (((cfg0.win 3).blk t).view.emb y) = _
  rw [V_main_arg3 m c]
  refine congrArg (m ((c : Thread nD τ).loc main_arg3)) (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega

/-- The bias row the region finds is the host's reshape of the bias to one row. -/
theorem bias_reshaped (c : Dev nD) :
    (V m c main_v0 : S1x512.Idx → EReal) = shapeCast S1x512 (m ((c : Thread nD τ).loc main_arg4)) shapeCasts_S512_S1x512 := by
  dsimp only [Gen.V, Gen.hostOps0]; after_results; rfl

/-- The bias row a step loads, at column `q`, is the bias at `q`. -/
theorem bias_row (c : Dev nD) (t : Fin cfg0.N) (q : Fin 512) :
    iblk m c 4 t (ix2 (0 : Fin 1) q) = m ((c : Thread nD τ).loc main_arg4) (ix1 q) := by
  obtain ⟨-, -, -, -, -, -, -, -, e0, e1, -⟩ := idx_facts t
  have hemb : ((cfg0.win 4).blk t).view.emb (ix2 (0 : Fin 1) q) = ix2 (0 : Fin 1) q := funext fun a => Fin.ext (by
    match a with
    | ⟨0, _⟩ => show win0_4.index t (0 : Fin 2) * 1 + 1 * 0 = 0; omega
    | ⟨1, _⟩ => show win0_4.index t (1 : Fin 2) * 512 + 1 * q.val = q.val; omega)
  show V m c main_v0 (((cfg0.win 4).blk t).view.emb (ix2 (0 : Fin 1) q)) = _
  rw [hemb]
  refine (congrFun (bias_reshaped m c) (ix2 (0 : Fin 1) q)).trans ?_
  exact shapeCast_a_1a_apply _ _ (0 : Fin 1) q

/-- The step's own feature rows: row `p` is row `200 * t + p` of the features. -/
theorem own_rows (c : Dev nD) (t : Fin cfg0.N) (p : Fin 200) (k : Fin 512) (P : Fin 10000)
    (hP : P.val = 200 * t.val + p.val) :
    Pieces.ownRows (grid0.coords t) (iblk m c 0 t) (ix2 p k) = m ((c : Thread nD τ).loc main_arg0) (ix2 P k) := by
  obtain ⟨-, -, -, -, -, -, -, -, -, -, -, -, -, -, ec⟩ := idx_facts t
  rw [feats_whole m c t]
  exact Payload.ownRows_apply (grid0.coords t) _ p k P (by rw [ec]; exact hP)

/-! ## What a step writes back -/

/-- Row `p` of block `t` is a row of the array. -/
theorem row_lt (t : Fin cfg0.N) (p : Fin 200) : 200 * t.val + p.val < 10000 := by
  have hN : cfg0.N = 50 := N_0
  have := t.isLt
  have := p.isLt
  omega

/-- Step `t` writes back, to the message array, block `t` of the specification's message. -/
theorem flushed_message (c : Dev nD) (t : Fin cfg0.N) :
    (dats m 0 c).flushed 6 t = ((cfg0.win 6).blk t).view.read (Elt Ideal)
      (Cert.Spec.message (m ((c : Thread nD τ).loc main_arg0)) (m ((c : Thread nD τ).loc main_arg1))
        (m ((c : Thread nD τ).loc main_arg2)) (m ((c : Thread nD τ).loc main_arg3))) := by
  obtain ⟨-, -, -, -, -, -, -, -, -, -, -, -, e0, e1, -⟩ := idx_facts t
  rw [Value.flushed6_A, Pieces.message_block]
  refine funext fun (j : S200x512.Idx) => ?_
  obtain ⟨p, q, rfl⟩ : ∃ (p : Fin 200) (q : Fin 512), j = ix2 p q := ⟨j 0, j 1, eq_ix2 j⟩
  have hemb : ((cfg0.win 6).blk t).view.emb (ix2 p q) = ix2 (⟨200 * t.val + p.val, row_lt t p⟩ : Fin 10000) q :=
    funext fun a => Fin.ext (by
      match a with
      | ⟨0, _⟩ => show win0_6.index t (0 : Fin 2) * 200 + 1 * p.val = 200 * t.val + p.val; omega
      | ⟨1, _⟩ => show win0_6.index t (1 : Fin 2) * 512 + 1 * q.val = q.val; omega)
  show k0_pay1 (iblk m c 1 t) (iblk m c 0 t) (iblk m c 2 t) (iblk m c 3 t) (ix2 p q)
    = Cert.Spec.message (m ((c : Thread nD τ).loc main_arg0)) (m ((c : Thread nD τ).loc main_arg1))
        (m ((c : Thread nD τ).loc main_arg2)) (m ((c : Thread nD τ).loc main_arg3)) (((cfg0.win 6).blk t).view.emb (ix2 p q))
  rw [hemb]
  exact Blocks.message_eq (m ((c : Thread nD τ).loc main_arg0)) (m ((c : Thread nD τ).loc main_arg1))
    (m ((c : Thread nD τ).loc main_arg2)) (m ((c : Thread nD τ).loc main_arg3))
    (iblk m c 1 t) (iblk m c 0 t) (iblk m c 2 t) (iblk m c 3 t) ⟨200 * t.val + p.val, row_lt t p⟩ p q
    (fun l => adj_rows m c t p l ⟨200 * t.val + p.val, row_lt t p⟩ rfl) (feats_whole m c t)
    (fun k => res_rows m c t p k ⟨200 * t.val + p.val, row_lt t p⟩ rfl) (weights_whole m c t)

/-- Step `t` writes back, to the output array, block `t` of the specification's output. -/
theorem flushed_output (c : Dev nD) (t : Fin cfg0.N) :
    (dats m 0 c).flushed 5 t = ((cfg0.win 5).blk t).view.read (Elt Ideal)
      (Cert.Spec.output (m ((c : Thread nD τ).loc main_arg0)) (m ((c : Thread nD τ).loc main_arg1))
        (m ((c : Thread nD τ).loc main_arg2)) (m ((c : Thread nD τ).loc main_arg3)) (m ((c : Thread nD τ).loc main_arg4))) := by
  obtain ⟨-, -, -, -, -, -, -, -, -, -, e0, e1, -⟩ := idx_facts t
  rw [Value.flushed5_A, Pieces.output_block]
  refine funext fun (j : S200x512.Idx) => ?_
  obtain ⟨p, q, rfl⟩ : ∃ (p : Fin 200) (q : Fin 512), j = ix2 p q := ⟨j 0, j 1, eq_ix2 j⟩
  have hemb : ((cfg0.win 5).blk t).view.emb (ix2 p q) = ix2 (⟨200 * t.val + p.val, row_lt t p⟩ : Fin 10000) q :=
    funext fun a => Fin.ext (by
      match a with
      | ⟨0, _⟩ => show win0_5.index t (0 : Fin 2) * 200 + 1 * p.val = 200 * t.val + p.val; omega
      | ⟨1, _⟩ => show win0_5.index t (1 : Fin 2) * 512 + 1 * q.val = q.val; omega)
  show k0_pay2 (iblk m c 1 t) (iblk m c 0 t) (iblk m c 2 t) (Pieces.ownRows (grid0.coords t) (iblk m c 0 t))
      (iblk m c 3 t) (iblk m c 3 t) (iblk m c 4 t) (ix2 p q)
    = Cert.Spec.output (m ((c : Thread nD τ).loc main_arg0)) (m ((c : Thread nD τ).loc main_arg1))
        (m ((c : Thread nD τ).loc main_arg2)) (m ((c : Thread nD τ).loc main_arg3)) (m ((c : Thread nD τ).loc main_arg4))
        (((cfg0.win 5).blk t).view.emb (ix2 p q))
  rw [hemb]
  exact Blocks.output_eq (m ((c : Thread nD τ).loc main_arg0)) (m ((c : Thread nD τ).loc main_arg1))
    (m ((c : Thread nD τ).loc main_arg2)) (m ((c : Thread nD τ).loc main_arg3)) (m ((c : Thread nD τ).loc main_arg4))
    (iblk m c 1 t) (iblk m c 0 t) (iblk m c 2 t) (Pieces.ownRows (grid0.coords t) (iblk m c 0 t))
    (iblk m c 3 t) (iblk m c 3 t) (iblk m c 4 t) ⟨200 * t.val + p.val, row_lt t p⟩ p q
    (fun l => adj_rows m c t p l ⟨200 * t.val + p.val, row_lt t p⟩ rfl) (feats_whole m c t)
    (fun k => res_rows m c t p k ⟨200 * t.val + p.val, row_lt t p⟩ rfl) (weights_whole m c t)
    (fun k => own_rows m c t p k ⟨200 * t.val + p.val, row_lt t p⟩ rfl) (weights_whole m c t)
    (bias_row m c t q)

/-! ## The row blocks tile the arrays -/

/-- An index of the output array is in step `t`'s block iff each coordinate is in the block's range on its axis. -/
theorem mem_blk_output (t : Fin cfg0.N) (i : S10000x512.Idx) :
    i ∈ ((cfg0.win 5).blk t).view.set ↔ ∀ a : Fin 2, win0_5.index t a * S200x512.size a ≤ (i a).val
      ∧ (i a).val < win0_5.index t a * S200x512.size a + S200x512.size a := by
  show i ∈ ((View.whole main_v1_0).slice (win0_5.rect t)).set ↔ _
  rw [View.set_slice_whole, Rect.mem_set_unit]
  exact Iff.rfl

/-- The same for the message array. -/
theorem mem_blk_message (t : Fin cfg0.N) (i : S10000x512.Idx) :
    i ∈ ((cfg0.win 6).blk t).view.set ↔ ∀ a : Fin 2, win0_6.index t a * S200x512.size a ≤ (i a).val
      ∧ (i a).val < win0_6.index t a * S200x512.size a + S200x512.size a := by
  show i ∈ ((View.whole main_v1_1).slice (win0_6.rect t)).set ↔ _
  rw [View.set_slice_whole, Rect.mem_set_unit]
  exact Iff.rfl

/-- Row `P` of the output array lies in the block of step `P / 200`. -/
theorem cover_output (i : S10000x512.Idx) :
    ∃ t : Fin cfg0.N, (cfg0.win 5).flush t = true ∧ i ∈ ((cfg0.win 5).blk t).view.set := by
  have hN : cfg0.N = 50 := N_0
  have h0 : (i 0).val < 10000 := (i 0).isLt
  have h1 : (i 1).val < 512 := (i 1).isLt
  obtain ⟨t, ht⟩ : ∃ t : Fin cfg0.N, t.val = (i 0).val / 200 := ⟨⟨(i 0).val / 200, by omega⟩, rfl⟩
  obtain ⟨-, -, -, -, -, -, -, -, -, -, e0, e1, -⟩ := idx_facts t
  refine ⟨t, flush0_5 t, ?_⟩
  rw [mem_blk_output]
  intro a
  match a with
  | ⟨0, _⟩ =>
    show win0_5.index t (0 : Fin 2) * 200 ≤ (i 0).val ∧ (i 0).val < win0_5.index t (0 : Fin 2) * 200 + 200
    omega
  | ⟨1, _⟩ =>
    show win0_5.index t (1 : Fin 2) * 512 ≤ (i 1).val ∧ (i 1).val < win0_5.index t (1 : Fin 2) * 512 + 512
    omega

/-- Row `P` of the message array lies in the block of step `P / 200`. -/
theorem cover_message (i : S10000x512.Idx) :
    ∃ t : Fin cfg0.N, (cfg0.win 6).flush t = true ∧ i ∈ ((cfg0.win 6).blk t).view.set := by
  have hN : cfg0.N = 50 := N_0
  have h0 : (i 0).val < 10000 := (i 0).isLt
  have h1 : (i 1).val < 512 := (i 1).isLt
  obtain ⟨t, ht⟩ : ∃ t : Fin cfg0.N, t.val = (i 0).val / 200 := ⟨⟨(i 0).val / 200, by omega⟩, rfl⟩
  obtain ⟨-, -, -, -, -, -, -, -, -, -, -, -, e0, e1, -⟩ := idx_facts t
  refine ⟨t, flush0_6 t, ?_⟩
  rw [mem_blk_message]
  intro a
  match a with
  | ⟨0, _⟩ =>
    show win0_6.index t (0 : Fin 2) * 200 ≤ (i 0).val ∧ (i 0).val < win0_6.index t (0 : Fin 2) * 200 + 200
    omega
  | ⟨1, _⟩ =>
    show win0_6.index t (1 : Fin 2) * 512 ≤ (i 1).val ∧ (i 1).val < win0_6.index t (1 : Fin 2) * 512 + 512
    omega

/-! ## The arrays after the run -/

/-- The output array ends holding the specification's output of the argument arrays. -/
theorem final_output (c : Dev nD) : (dats m 0 c).arrAt 5 cfg0.N
    = Cert.Spec.output (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 5 _ (fun t _ => flushed_output m c t) cover_output

/-- The message array ends holding the specification's message of the argument arrays. -/
theorem final_message (c : Dev nD) : (dats m 0 c).arrAt 6 cfg0.N
    = Cert.Spec.message (m ((c : Thread nD τ).loc main_arg0)) (m ((c : Thread nD τ).loc main_arg1))
        (m ((c : Thread nD τ).loc main_arg2)) (m ((c : Thread nD τ).loc main_arg3)) :=
  (dats m 0 c).arrAt_eq_of_cover 6 _ (fun t _ => flushed_message m c t) cover_message

/-- The kernel's run: every weakly fair execution ends with the two result arrays at the specification of the
    argument arrays, the arguments unchanged. -/
theorem run : θ_run defs (onTc (τ := τ) (main (F := Ideal))) ⟨m, fun _ => 0, ρ⟩ fun r => ∀ c : Dev nD,
      r.2.mem ((c : Thread nD τ).loc main_v1_0)
        = Cert.Spec.output (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_v1_1)
        = Cert.Spec.message (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_output m c), (h c).2.1.trans (final_message m c), (h c).2.2⟩)
    (Value.run_blocks m ρ)

end Cert.KernelIdeal.KValue

end
-- ==== Proof.RefValue.lean ====
/-
  The reference computes the layer of the specification.

  Read one operation at a time at an element (p, q), the reference's message is
      sum over k of (((sum over l of adj p l * x l k) + r p k) / 2) * w k q
  and its output is  ((sum over k of x p k * w k q) + message p q) + b q.
  The quotient by the float 2 is the product with the float 1/2 on every extended real, and the two summands of
  the output are the specification's in the other order: nothing else differs.
-/
import proofs.«103387_g65738769432681_cont_9to1_m_364_4_alg».proof.Proof.Gen.ReferenceIdeal.Read
import proofs.«103387_g65738769432681_cont_9to1_m_364_4_alg».proof.Proof.Spec

noncomputable section

open Idealize.ShloMosaic Idealize.ShloMosaic.TcCoe Idealize.ShloMosaic.ValueIdx

namespace Cert.RefValue

open Cert.ReferenceIdeal Cert.ReferenceIdeal.Read

/-- The reference's averaged neighbourhood sum at row `p`, feature `k` is the specification's. -/
theorem agg_eq (x0 : (⟨S10000x512, .f32⟩ : BufTy).Contents (Elt Ideal)) (x1 : (⟨S10000x10000, .f32⟩ : BufTy).Contents (Elt Ideal))
    (x2 : (⟨S10000x512, .f32⟩ : BufTy).Contents (Elt Ideal)) (p : Fin 10000) (k : Fin 512) :
    val_main_v4 (F := Ideal) x0 x1 x2 (ix2 p k) = Cert.Spec.agg x0 x1 x2 p k := by
  have el : ∀ l : Fin 10000, lidx_main_v1 (ix2 p k) l = ix2 p l := fun l => funext fun a => Fin.ext (by
    match a with | ⟨0, _⟩ => rfl | ⟨1, _⟩ => rfl)
  have er : ∀ l : Fin 10000, ridx_main_v1 (ix2 p k) l = ix2 l k := fun l => funext fun a => Fin.ext (by
    match a with | ⟨0, _⟩ => rfl | ⟨1, _⟩ => rfl)
  rw [val_main_v4_apply, val_main_v2_apply, val_main_v3_apply, val_main_cst_apply, val_main_v1_apply]
  unfold Cert.Spec.agg
  refine (Cert.Spec.div_two _).trans ?_
  refine congrArg (fun z => (z + x2 (ix2 p k)) * Ideal.ofBits .f32 0x3F000000#32) ?_
  refine Finset.sum_congr rfl fun l _ => ?_
  rw [el, er]

/-- The reference's message is the specification's. -/
theorem message_eq (x0 : (⟨S10000x512, .f32⟩ : BufTy).Contents (Elt Ideal)) (x1 : (⟨S10000x10000, .f32⟩ : BufTy).Contents (Elt Ideal))
    (x2 : (⟨S10000x512, .f32⟩ : BufTy).Contents (Elt Ideal)) (x3 : (⟨S512x512, .f32⟩ : BufTy).Contents (Elt Ideal)) :
    val_main_v5 (F := Ideal) x0 x1 x2 x3 = Cert.Spec.message x0 x1 x2 x3 := by
  funext i
  obtain ⟨p, q, rfl⟩ : ∃ (p : Fin 10000) (q : Fin 512), i = ix2 p q := ⟨i 0, i 1, eq_ix2 i⟩
  rw [val_main_v5_apply]
  show _ = Cert.Spec.messageAt x0 x1 x2 x3 p q
  unfold Cert.Spec.messageAt
  refine Finset.sum_congr rfl fun k _ => ?_
  have el : lidx_main_v5 (ix2 p q) k = ix2 p k := funext fun a => Fin.ext (by
    match a with | ⟨0, _⟩ => rfl | ⟨1, _⟩ => rfl)
  have er : ridx_main_v5 (ix2 p q) k = ix2 k q := funext fun a => Fin.ext (by
    match a with | ⟨0, _⟩ => rfl | ⟨1, _⟩ => rfl)
  rw [el, er, agg_eq]

/-- The reference's output is the specification's: its two summands in the other order, then the bias. -/
theorem output_eq (x0 : (⟨S10000x512, .f32⟩ : BufTy).Contents (Elt Ideal)) (x1 : (⟨S10000x10000, .f32⟩ : BufTy).Contents (Elt Ideal))
    (x2 : (⟨S10000x512, .f32⟩ : BufTy).Contents (Elt Ideal)) (x3 : (⟨S512x512, .f32⟩ : BufTy).Contents (Elt Ideal))
    (x4 : (⟨S512, .f32⟩ : BufTy).Contents (Elt Ideal)) :
    val_main_v9 (F := Ideal) x0 x1 x2 x3 x4 = Cert.Spec.output x0 x1 x2 x3 x4 := by
  funext i
  obtain ⟨p, q, rfl⟩ : ∃ (p : Fin 10000) (q : Fin 512), i = ix2 p q := ⟨i 0, i 1, eq_ix2 i⟩
  have el : ∀ k : Fin 512, lidx_main_v0 (ix2 p q) k = ix2 p k := fun k => funext fun a => Fin.ext (by
    match a with | ⟨0, _⟩ => rfl | ⟨1, _⟩ => rfl)
  have er : ∀ k : Fin 512, ridx_main_v0 (ix2 p q) k = ix2 k q := fun k => funext fun a => Fin.ext (by
    match a with | ⟨0, _⟩ => rfl | ⟨1, _⟩ => rfl)
  have eb : idx_main_v7 (idx_main_v8 (ix2 p q)) = ix1 q := funext fun a => Fin.ext (by
    match a with | ⟨0, _⟩ => rfl)
  rw [val_main_v9_apply, val_main_v6_apply, val_main_v8_apply, val_main_v7_apply, val_main_v0_apply, message_eq]
  show ((∑ k : Fin 512, x0 (lidx_main_v0 (ix2 p q) k) * x3 (ridx_main_v0 (ix2 p q) k)) + Cert.Spec.messageAt x0 x1 x2 x3 p q)
      + x4 (idx_main_v7 (idx_main_v8 (ix2 p q)))
    = (Cert.Spec.messageAt x0 x1 x2 x3 p q + ∑ k : Fin 512, x0 (ix2 p k) * x3 (ix2 k q)) + x4 (ix1 q)
  rw [eb, add_comm (∑ k : Fin 512, x0 (lidx_main_v0 (ix2 p q) k) * x3 (ridx_main_v0 (ix2 p q) k))]
  refine congrArg (fun z => (Cert.Spec.messageAt x0 x1 x2 x3 p q + z) + x4 (ix1 q)) ?_
  refine Finset.sum_congr rfl fun k _ => ?_
  rw [el, er]

end Cert.RefValue

end
-- ==== Proof.lean ====
/-
  A residual graph-convolution layer as one fused kernel, against its plain reference.

  Both programs compute, for features x, adjacency adj, residual r, weights w and bias b,
      message = (((adj · x) + r) halved) · w        output = (message + x · w) + b.
  The kernel walks 50 blocks of 200 rows: each step multiplies its 200 adjacency rows by the resident features, adds
  the residual rows, multiplies by the float 1/2, multiplies by the resident weights (the message block), adds the
  product of its own 200 feature rows with the weights and the bias row (the output block). The reference divides by the
  float 2 where the kernel multiplies by 1/2 — the same extended real, infinities included — and adds x · w and the
  message in the other order. Every sum is over the same products in both programs, so no finiteness of the inputs
  is used. The frames are the generated ones; the ideal pass rewrote nothing.
-/
import proofs.«103387_g65738769432681_cont_9to1_m_364_4_alg».proof.Defs
import proofs.«103387_g65738769432681_cont_9to1_m_364_4_alg».proof.Proof.Gen.Kernel
import proofs.«103387_g65738769432681_cont_9to1_m_364_4_alg».proof.Proof.Gen.Kernel.Frame
import proofs.«103387_g65738769432681_cont_9to1_m_364_4_alg».proof.Proof.Gen.KernelIdeal
import proofs.«103387_g65738769432681_cont_9to1_m_364_4_alg».proof.Proof.Gen.KernelIdeal.Frame
import proofs.«103387_g65738769432681_cont_9to1_m_364_4_alg».proof.Proof.Gen.KernelIdeal.Value
import proofs.«103387_g65738769432681_cont_9to1_m_364_4_alg».proof.Proof.Gen.ReferenceIdeal
import proofs.«103387_g65738769432681_cont_9to1_m_364_4_alg».proof.Proof.Gen.ReferenceIdeal.Run
import proofs.«103387_g65738769432681_cont_9to1_m_364_4_alg».proof.Proof.Gen.ReferenceIdeal.Read
import proofs.«103387_g65738769432681_cont_9to1_m_364_4_alg».proof.Proof.Gen.Pre_finite_inputs
import proofs.«103387_g65738769432681_cont_9to1_m_364_4_alg».proof.Proof.KernelValue
import proofs.«103387_g65738769432681_cont_9to1_m_364_4_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run keeps its arguments: its generated run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the specification's output and message of the (agreeing) argument arrays. -/
theorem algebraic : Cert.algebraic_KernelIdeal_ReferenceIdeal := by
  intro m ρ m' ρ' _ hagree
  refine ⟨fun c => Cert.Spec.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Spec.message (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v9_eq, Cert.RefValue.output_eq, (hagree c).1, (hagree c).2.1,
      (hagree c).2.2.1, (hagree c).2.2.2.1, (hagree c).2.2.2.2]
  · rw [(h c).2.1, Cert.ReferenceIdeal.Read.val_main_v5_eq, Cert.RefValue.message_eq, (hagree c).1, (hagree c).2.1,
      (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
